-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S800000 : Shape := ⟨1, ![800000]⟩
abbrev S320x256 : Shape := ⟨2, ![320, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S320x256 : S_.BroadcastsInDim S320x256 (![] : Fin 0 → Fin S320x256.rank)
  reducesTo_S320x256_S_d0_1 : S320x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S256 .f32) (main_arg14 : FVec F S256x128 .f32) (main_arg15 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S256x256 .f32) (main_arg11 : FVec F S256 .f32) (main_arg12 : FVec F S256x256 .f32) (main_arg13 : FVec F S256 .f32) (main_arg14 : FVec F S256x128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_v48 main_v49 main_v50

def fn_part1 {F : FTy → Type} [FloatOps F] (main_arg6 : FVec F S256x256 .f32) (main_arg7 : FVec F S256 .f32) (main_arg8 : FVec F S256x128 .f32) (main_arg9 : FVec F S128 .f32) (main_arg10 : FVec F S256x256 .f32) (main_arg11 : FVec F S256 .f32) (main_arg12 : FVec F S256x256 .f32) (main_arg13 : FVec F S256 .f32) (main_arg14 : FVec F S256x128 .f32) (main_arg15 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S800000x64 .f32) (main_arg2 : IVec S800000 32) (main_arg3 : IVec S800000 32) (main_arg4 : FVec F S320x256 .f32) (main_arg5 : FVec F S256 .f32) (main_arg6 : FVec F S256x256 .f32) (main_arg7 : FVec F S256 .f32) (main_arg8 : FVec F S256x128 .f32) (main_arg9 : FVec F S128 .f32) (main_arg10 : FVec F S256x256 .f32) (main_arg11 : FVec F S256 .f32) (main_arg12 : FVec F S256x256 .f32) (main_arg13 : FVec F S256 .f32) (main_arg14 : FVec F S256x128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S320x256 .f32 := Host.absf main_arg4
  let main_cst_2 : FVec F S_ .f32 := constant S_ .f32 0x7F800000#32
  let main_v10 : FVec F S320x256 .f32 := broadcastInDim S320x256 ![] bcast_S_S320x256 main_cst_2
  let main_v11 : IVec S320x256 1 := cmpf .olt main_v9 main_v10
  let main_c_3 : IVec S_ 1 := constantI S_ 1 1#1
  let main_v12 : IVec S_ 1 := (fun x v => Host.reduce IntOp.andi x v reducesTo_S320x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S800000x64 : Shape := ⟨2, ![800000, 64]⟩
abbrev S800000 : Shape := ⟨1, ![800000]⟩
abbrev S320x256 : Shape := ⟨2, ![320, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S128x256 : Shape := ⟨2, ![128, 256]⟩
abbrev S64x256 : Shape := ⟨2, ![64, 256]⟩
abbrev S4000x128 : Shape := ⟨2, ![4000, 128]⟩
abbrev S4000x64 : Shape := ⟨2, ![4000, 64]⟩
abbrev S4000x256 : Shape := ⟨2, ![4000, 256]⟩
abbrev S1x256 : Shape := ⟨2, ![1, 256]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 48
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S320x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x128, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S800000x128, .bf16⟩
  | .hbm, ⟨36, _⟩ => ⟨S800000x64, .bf16⟩
  | .hbm, ⟨37, _⟩ => ⟨S128x256, .f32⟩
  | .hbm, ⟨38, _⟩ => ⟨S128x256, .f32⟩
  | .hbm, ⟨39, _⟩ => ⟨S64x256, .f32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S128x256, .f32⟩
  | .hbm, ⟨46, _⟩ => ⟨S128x256, .f32⟩
  | .hbm, ⟨47, _⟩ => ⟨S50000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x64, .bf16⟩
  | .local _ .vmem, ⟨5, _⟩ => ⟨S4000x64, .bf16⟩
  | .local _ .vmem, ⟨6, _⟩ => ⟨S128x256, .f32⟩
  | .local _ .vmem, ⟨7, _⟩ => ⟨S128x256, .f32⟩
  | .local _ .vmem, ⟨8, _⟩ => ⟨S64x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S256x128, .f32⟩
  | .local _ .vmem, ⟨13, _⟩ => ⟨S128, .f32⟩
  | .local _ .vmem, ⟨14, _⟩ => ⟨S4000x128, .f32⟩
  | .local _ .vmem, ⟨15, _⟩ => ⟨S4000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x256, .f32⟩
  | .local _ .vmem, ⟨21, _⟩ => ⟨S128x256, .f32⟩
  | .local _ .vmem, ⟨22, _⟩ => ⟨S256, .f32⟩
  | .local _ .vmem, ⟨23, _⟩ => ⟨S256x256, .f32⟩
  | .local _ .vmem, ⟨24, _⟩ => ⟨S256, .f32⟩
  | .local _ .vmem, ⟨25, _⟩ => ⟨S256x128, .f32⟩
  | .local _ .vmem, ⟨26, _⟩ => ⟨S128, .f32⟩
  | .local _ .vmem, ⟨27, _⟩ => ⟨S5000x128, .f32⟩
  | .local _ .vmem, ⟨28, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg9_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem9_1 : DmaSem sig := 28

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  slices_S320x256_S128x256_0_0 : S320x256.Slices ![0, 0] S128x256
  slices_S320x256_S128x256_128_0 : S320x256.Slices ![128, 0] S128x256
  slices_S320x256_S64x256_256_0 : S320x256.Slices ![256, 0] S64x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S50000x128 : S_.BroadcastsInDim S50000x128 (![] : Fin 0 → Fin S50000x128.rank)
  slices_S256x256_S128x256_0_0 : S256x256.Slices ![0, 0] S128x256
  slices_S256x256_S128x256_128_0 : S256x256.Slices ![128, 0] S128x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x256_S5000x256 : S1x256.Broadcasts S5000x256
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S4000x128_S128x256_S4000x256_1_0_0_1_n_n_wf : DotDims.WF S4000x128 S128x256 S4000x256 [1] [0] [0] [1] [] []
  dot_S4000x64_S64x256_S4000x256_1_0_0_1_n_n_wf : DotDims.WF S4000x64 S64x256 S4000x256 [1] [0] [0] [1] [] []
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .bf16 = 32 ∨ (Rect.block (s := S800000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .bf16 = 32 ∨ (Rect.block (s := S800000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S800000x64.size a
  hwx0_2 : ∀ i : grid0.Coords, EltTy.bits .bf16 = 32 ∨ (Rect.block (s := S800000x64) S4000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S800000x128.size a
  hwx0_11 : ∀ i : grid0.Coords, EltTy.bits .f32 = 32 ∨ (Rect.block (s := S800000x128) S4000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S256x128.size a
  hwx1_7 : ∀ i : grid1.Coords, EltTy.bits .f32 = 32 ∨ (Rect.block (s := S256x128) S256x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v7) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S256x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S800000 : Shape := ⟨1, ![800000]⟩
abbrev S320x256 : Shape := ⟨2, ![320, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S800000x320 : Shape := ⟨2, ![800000, 320]⟩
abbrev S800000x256 : Shape := ⟨2, ![800000, 256]⟩
abbrev S1x256 : Shape := ⟨2, ![1, 256]⟩
abbrev S1x128 : Shape := ⟨2, ![1, 128]⟩
abbrev S50000x256 : Shape := ⟨2, ![50000, 256]⟩

abbrev nBuf : Space → Nat
  | .hbm => 76
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S320x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x320, .f32⟩
  | .hbm, ⟨35, _⟩ => ⟨S800000x256, .f32⟩
  | .hbm, ⟨36, _⟩ => ⟨S1x256, .f32⟩
  | .hbm, ⟨37, _⟩ => ⟨S800000x256, .f32⟩
  | .hbm, ⟨38, _⟩ => ⟨S800000x256, .f32⟩
  | .hbm, ⟨39, _⟩ => ⟨S_, .f32⟩
  | .hbm, ⟨40, _⟩ => ⟨S800000x256, .f32⟩
  | .hbm, ⟨41, _⟩ => ⟨S800000x256, .f32⟩
  | .hbm, ⟨42, _⟩ => ⟨S800000x256, .f32⟩
  | .hbm, ⟨43, _⟩ => ⟨S1x256, .f32⟩
  | .hbm, ⟨44, _⟩ => ⟨S800000x256, .f32⟩
  | .hbm, ⟨45, _⟩ => ⟨S800000x256, .f32⟩
  | .hbm, ⟨46, _⟩ => ⟨S_, .f32⟩
  | .hbm, ⟨47, _⟩ => ⟨S800000x256, .f32⟩
  | .hbm, ⟨48, _⟩ => ⟨S800000x256, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x256, .f32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call2_cst : Ref sig .tc := ⟨.hbm, 62, rfl⟩
abbrev main_call2_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call3_cst : Ref sig .tc := ⟨.hbm, 69, rfl⟩
abbrev main_call3_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x64_S800000x320_d1 : Shape.Concatenates [S800000x128, S800000x128, S800000x64] S800000x320 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x320_S320x256_S800000x256_1_0_0_1_n_n_wf : DotDims.WF S800000x320 S320x256 S800000x256 [1] [0] [0] [1] [] []
  dot_S800000x256_S256x256_S800000x256_1_0_0_1_n_n_wf : DotDims.WF S800000x256 S256x256 S800000x256 [1] [0] [0] [1] [] []
  dot_S800000x256_S256x128_S800000x128_1_0_0_1_n_n_wf : DotDims.WF S800000x256 S256x128 S800000x128 [1] [0] [0] [1] [] []
  scatter_S50000x128_S800000x1_S800000x128_1_0_0_1_wf : ScatterDims.WF S50000x128 S800000x1 S800000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x320_S320x256_S800000x256_1_0_0_1_n_n : DotDims S800000x320 S320x256 S800000x256 where
  lhsContracting := [1]
  rhsContracting := [0]
  lhsNonContracting := [0]
  rhsNonContracting := [1]
  lhsBatch := []
  rhsBatch := []
  wf := dot_S800000x320_S320x256_S800000x256_1_0_0_1_n_n_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its two results named.

  The program is a stretch of host operations, the edge call, a second stretch, and the node call. Its buffer contents at
  the four boundaries are a fold from the launch memory: each host stretch rewrites the buffers its operations write, each
  call leaves its operand arrays as entered and its result array at what its points wrote back. Every execution ends with
  every buffer at the last stage of that fold; in particular the two results, and the sixteen arguments as launched.
-/
import proofs.«115003_j72559177498912_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with every unscoped buffer of every core at the last stage of the fold. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The two results at the last stage of the fold, the arguments as launched. -/
theorem run_results : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
      ⟨h c _ (mem_uc main_v26 (by decide)),
       h c _ (mem_uc main_v20 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)
    (run_fold m ρ)

end Cert.KernelIdeal.Whole

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«115003_j72559177498912_2_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«115003_j72559177498912_2_alg».proof.Proof.LibMatmulPlain
import proofs.«115003_j72559177498912_2_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.Stack.lean ====
/-
  The two networks of the message-passing step, as functions of whole matrices, for any number m of rows.

  Both are three dense layers 256, 256, 128 wide with a rectifier after the first two. The edge network's first layer
  takes three inputs per row — the sender's and the receiver's 128 node features and the edge's own 64 features — each
  against its own [·, 256] weight slab; the node network's first layer takes two, the node's 128 features and its 128
  summed incoming messages. Written with the first layer as a sum of separate products, which is how the tiled
  program computes it; the joined-matrix form of the reference equals it by splitting each entry's sum into its runs.

  Every output row is a function of the same row of each input alone: a block of rows of the result is the network
  applied to that block of rows of the inputs.
-/
import proofs.«115003_j72559177498912_2_alg».proof.Proof.LibDenseLayers

noncomputable section

namespace Cert.Layers

open Idealize.ShloMosaic Idealize.ShloMosaic.ValueIdx

variable {m m' : Nat}

/-- The edge network: rows of (ns | nr | ea) through 320 → 256 → 256 → 128, the first weight given as its three row slabs. -/
def edgeNet (ns nr : Mat m 128) (ea : Mat m 64) (w0a w0b : Mat 128 256) (w0c : Mat 64 256) (b0 : Row 256)
    (w1 : Mat 256 256) (b1 : Row 256) (w2 : Mat 256 128) (b2 : Row 128) : Mat m 128 :=
  dense (rect (dense (rect (fun i => ((mm ns w0a i + mm nr w0b i) + mm ea w0c i) + bias m b0 i)) w1 b1)) w2 b2

/-- The node network: rows of (na | ie) through 256 → 256 → 256 → 128, the first weight given as its two row slabs. -/
def nodeNet (na ie : Mat m 128) (w0a w0b : Mat 128 256) (b0 : Row 256)
    (w1 : Mat 256 256) (b1 : Row 256) (w2 : Mat 256 128) (b2 : Row 128) : Mat m 128 :=
  dense (rect (dense (rect (fun i => (mm na w0a i + mm ie w0b i) + bias m b0 i)) w1 b1)) w2 b2

/-- The value of the all-zero f32 word. -/
abbrev zeroWord : EReal := Ideal.ofBits .f32 0x00000000#32

theorem edgeNet_apply (ns nr : Mat m 128) (ea : Mat m 64) (w0a w0b : Mat 128 256) (w0c : Mat 64 256) (b0 : Row 256)
    (w1 : Mat 256 256) (b1 : Row 256) (w2 : Mat 256 128) (b2 : Row 128) (p : Fin m) (q : Fin 128) :
    edgeNet ns nr ea w0a w0b w0c b0 w1 b1 w2 b2 (ix2 p q)
      = (∑ l : Fin 256, max ((∑ j : Fin 256, max ((((∑ i : Fin 128, ns (ix2 p i) * w0a (ix2 i j))
            + ∑ i : Fin 128, nr (ix2 p i) * w0b (ix2 i j)) + ∑ i : Fin 64, ea (ix2 p i) * w0c (ix2 i j)) + b0 (ix1 j)) zeroWord
          * w1 (ix2 j l)) + b1 (ix1 l)) zeroWord * w2 (ix2 l q)) + b2 (ix1 q) := rfl

theorem nodeNet_apply (na ie : Mat m 128) (w0a w0b : Mat 128 256) (b0 : Row 256)
    (w1 : Mat 256 256) (b1 : Row 256) (w2 : Mat 256 128) (b2 : Row 128) (p : Fin m) (q : Fin 128) :
    nodeNet na ie w0a w0b b0 w1 b1 w2 b2 (ix2 p q)
      = (∑ l : Fin 256, max ((∑ j : Fin 256, max (((∑ i : Fin 128, na (ix2 p i) * w0a (ix2 i j))
            + ∑ i : Fin 128, ie (ix2 p i) * w0b (ix2 i j)) + b0 (ix1 j)) zeroWord
          * w1 (ix2 j l)) + b1 (ix1 l)) zeroWord * w2 (ix2 l q)) + b2 (ix1 q) := rfl

/-- Row p' of the edge network over inputs whose row p' is row p of other inputs is row p of the network over those. -/
theorem edgeNet_row (xs xr : Mat m' 128) (xe : Mat m' 64) (ns nr : Mat m 128) (ea : Mat m 64)
    (w0a w0b : Mat 128 256) (w0c : Mat 64 256) (b0 : Row 256) (w1 : Mat 256 256) (b1 : Row 256) (w2 : Mat 256 128) (b2 : Row 128)
    (p' : Fin m') (p : Fin m) (q : Fin 128)
    (hs : ∀ i, xs (ix2 p' i) = ns (ix2 p i)) (hr : ∀ i, xr (ix2 p' i) = nr (ix2 p i)) (he : ∀ i, xe (ix2 p' i) = ea (ix2 p i)) :
    edgeNet xs xr xe w0a w0b w0c b0 w1 b1 w2 b2 (ix2 p' q) = edgeNet ns nr ea w0a w0b w0c b0 w1 b1 w2 b2 (ix2 p q) := by
  rw [edgeNet_apply, edgeNet_apply]
  simp only [hs, hr, he]

/-- Row p' of the node network over inputs whose row p' is row p of other inputs is row p of the network over those. -/
theorem nodeNet_row (xa xi : Mat m' 128) (na ie : Mat m 128)
    (w0a w0b : Mat 128 256) (b0 : Row 256) (w1 : Mat 256 256) (b1 : Row 256) (w2 : Mat 256 128) (b2 : Row 128)
    (p' : Fin m') (p : Fin m) (q : Fin 128)
    (ha : ∀ i, xa (ix2 p' i) = na (ix2 p i)) (hi : ∀ i, xi (ix2 p' i) = ie (ix2 p i)) :
    nodeNet xa xi w0a w0b b0 w1 b1 w2 b2 (ix2 p' q) = nodeNet na ie w0a w0b b0 w1 b1 w2 b2 (ix2 p q) := by
  rw [nodeNet_apply, nodeNet_apply]
  simp only [ha, hi]

end Cert.Layers

end
-- ==== Proof.EdgeBody.lean ====
/-
  What the edge kernel's body computes from the blocks it loads, on the extended reals.

  The body takes a block of 4000 rows of the sender features, the receiver features and the edge features, and the
  whole weights and biases. It multiplies each input block by its own slab of the first weight on the matrix unit,
  adds the three products and the bias, rectifies, and runs two more dense layers. The casts to the narrower float
  format before each product are the identity here. So the stored block is the edge network of the loaded blocks.
-/
import proofs.«115003_j72559177498912_2_alg».proof.Proof.Gen.KernelIdeal.Skeleton
import proofs.«115003_j72559177498912_2_alg».proof.Proof.Stack

noncomputable section

namespace Cert.KernelIdeal.Body

open Idealize.ShloMosaic Idealize.ShloMosaic.ValueIdx Cert.KernelIdeal Cert.KernelIdeal.Gen Cert.Layers

/-- The stored block: the edge network of the eleven loaded blocks. -/
theorem edge_payload (x0 x1 : Vec Ideal S4000x128 .bf16) (x2 : Vec Ideal S4000x64 .bf16) (x3 x4 : Vec Ideal S128x256 .f32)
    (x5 : Vec Ideal S64x256 .f32) (x6 : Vec Ideal S256 .f32) (x7 : Vec Ideal S256x256 .f32) (x8 : Vec Ideal S256 .f32)
    (x9 : Vec Ideal S256x128 .f32) (x10 : Vec Ideal S128 .f32) :
    k0_pay1 (F := Ideal) (k0_pay2 (F := Ideal) x0 x1 x2 x3 x4 x5 x6 x7 x8) x9 x10
      = edgeNet x0 x1 x2 x3 x4 x5 x6 x7 x8 x9 x10 := by
  unfold k0_pay1 k0_pay2
  simp only [shapeCast_self,
    tileMm_eq dot_S4000x128_S128x256_S4000x256_1_0_0_1_n_n dot_S4000x128_S128x256_S4000x256_1_0_0_1_n_n.wf rfl,
    tileMm_eq dot_S4000x64_S64x256_S4000x256_1_0_0_1_n_n dot_S4000x64_S64x256_S4000x256_1_0_0_1_n_n.wf rfl,
    tileMm_eq dot_S4000x256_S256x256_S4000x256_1_0_0_1_n_n dot_S4000x256_S256x256_S4000x256_1_0_0_1_n_n.wf rfl,
    tileMm_eq dot_S4000x256_S256x128_S4000x128_1_0_0_1_n_n dot_S4000x256_S256x128_S4000x128_1_0_0_1_n_n.wf rfl,
    tileBias_eq]
  rfl

end Cert.KernelIdeal.Body

end
-- ==== Proof.EdgeArray.lean ====
/-
  From the edge kernel's blocks to its output array, for any contents V of the buffers when the call is entered.

  The call runs 200 points; point t loads rows 4000 t .. 4000 t + 3999 of the sender, receiver and edge feature arrays
  and the whole weights and biases, and writes back the same rows of the result. Since a row of the edge network depends
  on that row of its inputs alone, what point t writes back is rows 4000 t .. of the edge network of the WHOLE arrays; the
  200 blocks tile the 800000 rows, so after the call the result array is the edge network of the arrays as entered.
-/
import proofs.«115003_j72559177498912_2_alg».proof.Proof.Gen.KernelIdeal.Frame
import proofs.«115003_j72559177498912_2_alg».proof.Proof.EdgeBody
import Idealize.ShloMosaic.Lib.Pipeline.Value

set_option maxRecDepth 16384

noncomputable section

namespace Cert.KernelIdeal.EdgeArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The result array after the call: the edge network of the call's operand arrays as the call finds them. -/
def arr (c : Dev nD) : S800000x128.Idx → EReal :=
  edgeNet (V c main_v7) (V c main_v15) (V c main_v16) (V c main_v17) (V c main_v18) (V c main_v19)
    (V c main_arg5) (V c main_arg6) (V c main_arg7) (V c main_arg8) (V c main_arg9)

/-- The printed index maps over the grid: the three row-blocked inputs move with the output block, every weight and
    bias window stays at block 0, and the output's block index is the point's number. -/
theorem idx_facts : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_2.index t (0 : Fin 2) = win0_11.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) ≤ 199 ∧ win0_11.index t (1 : Fin 2) = 0 :=
  (by decide +kernel : ∀ t : Fin grid0.N, _)

/-- Every block of 4000 rows is some point's. -/
theorem idx_onto : ∀ q0 : Fin 200, ∃ t : Fin cfg0.N, win0_11.index t = ![q0.val, 0] :=
  (by decide +kernel : ∀ q0 : Fin 200, ∃ t : Fin grid0.N, win0_11.index t = ![q0.val, 0])

/-- What point t writes back is block t of the edge network of the whole arrays. -/
theorem flushed_eq (c : Dev nD) (t : Fin cfg0.N) :
    (dat0 V c).flushed 11 t = ((cfg0.win 11).blk t).view.read (Elt Ideal) (arr V c) := by
  show (cfg0.win 11).cut (grid0.coords t) ((dat0 V c).after 11 t) = _
  rw [after0_11]
  unfold out0_11
  rw [View.canon_unit_zero hz2]
  simp only [View.ld_unit_zero (S := S4000x128) hz2, View.ld_unit_zero (S := S4000x64) hz2,
    View.ld_unit_zero (S := S128x256) hz2, View.ld_unit_zero (S := S64x256) hz2, View.ld_unit_zero (S := S256) hz1,
    View.ld_unit_zero (S := S256x256) hz2, View.ld_unit_zero (S := S256x128) hz2, View.ld_unit_zero (S := S128) hz1]
  rw [Body.edge_payload]
  obtain ⟨e00, e01, e10, e11, e20, e21, e30, e31, e40, e41, e50, e51, e60, e70, e71, e80, e90, e91, e100, eo0, eo1⟩ := idx_facts t
  have w3 : iblk0 V c 3 t = V c main_v17 := by
    funext y; show V c main_v17 (((cfg0.win 3).blk t).view.emb y) = V c main_v17 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 256 + 1 * (y 1).val = (y 1).val; omega
  have w4 : iblk0 V c 4 t = V c main_v18 := by
    funext y; show V c main_v18 (((cfg0.win 4).blk t).view.emb y) = V c main_v18 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 256 + 1 * (y 1).val = (y 1).val; omega
  have w5 : iblk0 V c 5 t = V c main_v19 := by
    funext y; show V c main_v19 (((cfg0.win 5).blk t).view.emb y) = V c main_v19 y
    refine congrArg _ (funext fun a => Fin.ext ?_)
    match a with
    | ⟨0, _⟩ => show win0_5.index t (0 : Fin 2) * 64 + 1 * (y 0).val = (y 0).val; omega
    | ⟨1, _⟩ => show win0_5.index t (1 : Fin 2) * 256 + 1 * (y 1).val = (y 1).val; omega
  have w6 : iblk0 V c 6 t = V c main_arg5 := by
    funext y; show V c main_arg5 (((cfg0.win 6).blk t).view.emb y) = V c main_arg5 y
    refine congrArg _ (funext fun a => Fin.ext ?_)
    match a with
    | ⟨0, _⟩ => show win0_6.index t (0 : Fin 1) * 256 + 1 * (y 0).val = (y 0).val; omega
  have w7 : iblk0 V c 7 t = V c main_arg6 := by
    funext y; show V c main_arg6 (((cfg0.win 7).blk t).view.emb y) = V c main_arg6 y
    refine congrArg _ (funext fun a => Fin.ext ?_)
    match a with
    | ⟨0, _⟩ => show win0_7.index t (0 : Fin 2) * 256 + 1 * (y 0).val = (y 0).val; omega
    | ⟨1, _⟩ => show win0_7.index t (1 : Fin 2) * 256 + 1 * (y 1).val = (y 1).val; omega
  have w8 : iblk0 V c 8 t = V c main_arg7 := by
    funext y; show V c main_arg7 (((cfg0.win 8).blk t).view.emb y) = V c main_arg7 y
    refine congrArg _ (funext fun a => Fin.ext ?_)
    match a with
    | ⟨0, _⟩ => show win0_8.index t (0 : Fin 1) * 256 + 1 * (y 0).val = (y 0).val; omega
  have w9 : iblk0 V c 9 t = V c main_arg8 := by
    funext y; show V c main_arg8 (((cfg0.win 9).blk t).view.emb y) = V c main_arg8 y
    refine congrArg _ (funext fun a => Fin.ext ?_)
    match a with
    | ⟨0, _⟩ => show win0_9.index t (0 : Fin 2) * 256 + 1 * (y 0).val = (y 0).val; omega
    | ⟨1, _⟩ => show win0_9.index t (1 : Fin 2) * 128 + 1 * (y 1).val = (y 1).val; omega
  have w10 : iblk0 V c 10 t = V c main_arg9 := by
    funext y; show V c main_arg9 (((cfg0.win 10).blk t).view.emb y) = V c main_arg9 y
    refine congrArg _ (funext fun a => Fin.ext ?_)
    match a with
    | ⟨0, _⟩ => show win0_10.index t (0 : Fin 1) * 128 + 1 * (y 0).val = (y 0).val; omega
  rw [w3, w4, w5, w6, w7, w8, w9, w10]
  funext y
  obtain ⟨p', q, rfl⟩ : ∃ (p' : Fin 4000) (q : Fin 128), y = ix2 p' q := ⟨y 0, y 1, eq_ix2 y⟩
  have hp' : p'.val < 4000 := p'.isLt
  have hemb : ((cfg0.win 11).blk t).view.emb (ix2 p' q)
      = ix2 (⟨win0_11.index t (0 : Fin 2) * 4000 + p'.val, by omega⟩ : Fin 800000) q := by
    funext a; apply Fin.ext
    match a with
    | ⟨0, _⟩ => show win0_11.index t (0 : Fin 2) * 4000 + 1 * p'.val = win0_11.index t (0 : Fin 2) * 4000 + p'.val; omega
    | ⟨1, _⟩ => show win0_11.index t (1 : Fin 2) * 128 + 1 * q.val = q.val; omega
  show edgeNet (iblk0 V c 0 t) (iblk0 V c 1 t) (iblk0 V c 2 t) (V c main_v17) (V c main_v18) (V c main_v19)
      (V c main_arg5) (V c main_arg6) (V c main_arg7) (V c main_arg8) (V c main_arg9) (ix2 p' q)
    = arr V c (((cfg0.win 11).blk t).view.emb (ix2 p' q))
  rw [hemb]
  unfold arr
  refine edgeNet_row _ _ _ _ _ _ _ _ _ _ _ _ _ _ p' _ q (fun i => ?_) (fun i => ?_) (fun i => ?_)
  · show V c main_v7 (((cfg0.win 0).blk t).view.emb (ix2 p' i)) = V c main_v7 _
    refine congrArg _ (funext fun a => Fin.ext ?_)
    match a with
    | ⟨0, _⟩ => show win0_0.index t (0 : Fin 2) * 4000 + 1 * p'.val = win0_11.index t (0 : Fin 2) * 4000 + p'.val; omega
    | ⟨1, _⟩ => show win0_0.index t (1 : Fin 2) * 128 + 1 * i.val = i.val; omega
  · show V c main_v15 (((cfg0.win 1).blk t).view.emb (ix2 p' i)) = V c main_v15 _
    refine congrArg _ (funext fun a => Fin.ext ?_)
    match a with
    | ⟨0, _⟩ => show win0_1.index t (0 : Fin 2) * 4000 + 1 * p'.val = win0_11.index t (0 : Fin 2) * 4000 + p'.val; omega
    | ⟨1, _⟩ => show win0_1.index t (1 : Fin 2) * 128 + 1 * i.val = i.val; omega
  · show V c main_v16 (((cfg0.win 2).blk t).view.emb (ix2 p' i)) = V c main_v16 _
    refine congrArg _ (funext fun a => Fin.ext ?_)
    match a with
    | ⟨0, _⟩ => show win0_2.index t (0 : Fin 2) * 4000 + 1 * p'.val = win0_11.index t (0 : Fin 2) * 4000 + p'.val; omega
    | ⟨1, _⟩ => show win0_2.index t (1 : Fin 2) * 64 + 1 * i.val = i.val; omega

/-- An index of the array is in point t's block iff each coordinate is in the block's range on its axis. -/
theorem mem_blk (t : Fin cfg0.N) (i : S800000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v20).slice (win0_11.rect t)).set ↔ _
  rw [View.set_slice_whole, Rect.mem_set_unit]
  exact Iff.rfl

/-- Every row of the result lies in the block of the point numbered row / 4000. -/
theorem cover (i : S800000x128.Idx) :
    ∃ t : Fin cfg0.N, (cfg0.win 11).flush t = true ∧ i ∈ ((cfg0.win 11).blk t).view.set := by
  have hi0 : (i 0).val < 800000 := (i 0).isLt
  have hi1 : (i 1).val < 128 := (i 1).isLt
  obtain ⟨t, ht⟩ := idx_onto ⟨(i 0).val / 4000, by omega⟩
  have q0 : win0_11.index t (0 : Fin 2) = (i 0).val / 4000 := congrFun ht 0
  have q1 : win0_11.index t (1 : Fin 2) = 0 := congrFun ht 1
  refine ⟨t, flush0_11 t, ?_⟩
  rw [mem_blk]
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 128 ≤ (i 1).val ∧ (i 1).val < win0_11.index t (1 : Fin 2) * 128 + 128; omega

/-- The result array after the call. -/
theorem final (c : Dev nD) : (dat0 V c).arrAt 11 cfg0.N = arr V c :=
  (dat0 V c).arrAt_eq_of_cover 11 (arr V c) (fun t _ => flushed_eq V c t) (cover)

end Cert.KernelIdeal.EdgeArray

end
-- ==== Proof.NodeBody.lean ====
/-
  What the node kernel's body computes from the blocks it loads, on the extended reals.

  The body takes a block of 5000 rows of the node features and of the summed incoming messages, and the whole weights
  and biases. It multiplies each input block by its own slab of the first weight on the matrix unit, adds the two
  products and the bias, rectifies, and runs two more dense layers; the casts to the narrower float format are the
  identity here. So the stored block is the node network of the loaded blocks.
-/
import proofs.«115003_j72559177498912_2_alg».proof.Proof.Gen.KernelIdeal.Skeleton
import proofs.«115003_j72559177498912_2_alg».proof.Proof.Stack

noncomputable section

namespace Cert.KernelIdeal.Body

open Idealize.ShloMosaic Idealize.ShloMosaic.ValueIdx Cert.KernelIdeal Cert.KernelIdeal.Gen Cert.Layers

/-- The stored block: the node network of the nine loaded blocks. -/
theorem node_payload (x0 x1 : Vec Ideal S5000x128 .f32) (x2 x3 : Vec Ideal S128x256 .f32) (x4 : Vec Ideal S256 .f32)
    (x5 : Vec Ideal S256x256 .f32) (x6 : Vec Ideal S256 .f32) (x7 : Vec Ideal S256x128 .f32) (x8 : Vec Ideal S128 .f32) :
    k1_pay1 (F := Ideal) x0 x1 x2 x3 x4 x5 x6 x7 x8 = nodeNet x0 x1 x2 x3 x4 x5 x6 x7 x8 := by
  unfold k1_pay1
  simp only [shapeCast_self,
    tileMm_eq dot_S5000x128_S128x256_S5000x256_1_0_0_1_n_n dot_S5000x128_S128x256_S5000x256_1_0_0_1_n_n.wf rfl,
    tileMm_eq dot_S5000x256_S256x256_S5000x256_1_0_0_1_n_n dot_S5000x256_S256x256_S5000x256_1_0_0_1_n_n.wf rfl,
    tileMm_eq dot_S5000x256_S256x128_S5000x128_1_0_0_1_n_n dot_S5000x256_S256x128_S5000x128_1_0_0_1_n_n.wf rfl,
    tileBias_eq]
  rfl

end Cert.KernelIdeal.Body

end
-- ==== Proof.NodeArray.lean ====
/-
  From the node kernel's blocks to its output array, for any contents V of the buffers when the call is entered.

  The call runs 10 points; point t loads rows 5000 t .. 5000 t + 4999 of the node features and of the summed incoming
  messages and the whole weights and biases, and writes back the same rows of the result. A row of the node network
  depends on that row of its inputs alone, so what point t writes back is rows 5000 t .. of the node network of the WHOLE
  arrays; the 10 blocks tile the 50000 rows, so after the call the result array is the node network of the arrays as entered.
-/
import proofs.«115003_j72559177498912_2_alg».proof.Proof.Gen.KernelIdeal.Frame
import proofs.«115003_j72559177498912_2_alg».proof.Proof.NodeBody
import Idealize.ShloMosaic.Lib.Pipeline.Value

set_option maxRecDepth 16384

noncomputable section

namespace Cert.KernelIdeal.NodeArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The result array after the call: the node network of the call's operand arrays as the call finds them. -/
def arr (c : Dev nD) : S50000x128.Idx → EReal :=
  nodeNet (V c main_arg0) (V c main_v23) (V c main_v24) (V c main_v25)
    (V c main_arg11) (V c main_arg12) (V c main_arg13) (V c main_arg14) (V c main_arg15)

/-- The printed index maps over the grid: the two row-blocked inputs move with the output block, every weight and
    bias window stays at block 0, and the output's block index is the point's number. -/
theorem idx_facts : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) ≤ 9 ∧ win1_9.index t (1 : Fin 2) = 0 :=
  (by decide +kernel : ∀ t : Fin grid1.N, _)

/-- Every block of 5000 rows is some point's. -/
theorem idx_onto : ∀ q0 : Fin 10, ∃ t : Fin cfg1.N, win1_9.index t = ![q0.val, 0] :=
  (by decide +kernel : ∀ q0 : Fin 10, ∃ t : Fin grid1.N, win1_9.index t = ![q0.val, 0])

/-- What point t writes back is block t of the node network of the whole arrays. -/
theorem flushed_eq (c : Dev nD) (t : Fin cfg1.N) :
    (dat1 V c).flushed 9 t = ((cfg1.win 9).blk t).view.read (Elt Ideal) (arr V c) := by
  show (cfg1.win 9).cut (grid1.coords t) ((dat1 V c).after 9 t) = _
  rw [after1_9]
  unfold out1_9
  rw [View.canon_unit_zero hz2]
  simp only [View.ld_unit_zero (S := S5000x128) hz2, View.ld_unit_zero (S := S128x256) hz2,
    View.ld_unit_zero (S := S256) hz1, View.ld_unit_zero (S := S256x256) hz2, View.ld_unit_zero (S := S256x128) hz2,
    View.ld_unit_zero (S := S128) hz1]
  rw [Body.node_payload]
  obtain ⟨e00, e01, e10, e11, e20, e21, e30, e31, e40, e50, e51, e60, e70, e71, e80, eo0, eo1⟩ := idx_facts t
  have w2 : iblk1 V c 2 t = V c main_v24 := by
    funext y; show V c main_v24 (((cfg1.win 2).blk t).view.emb y) = V c main_v24 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 256 + 1 * (y 1).val = (y 1).val; omega
  have w3 : iblk1 V c 3 t = V c main_v25 := by
    funext y; show V c main_v25 (((cfg1.win 3).blk t).view.emb y) = V c main_v25 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 256 + 1 * (y 1).val = (y 1).val; omega
  have w4 : iblk1 V c 4 t = V c main_arg11 := by
    funext y; show V c main_arg11 (((cfg1.win 4).blk t).view.emb y) = V c main_arg11 y
    refine congrArg _ (funext fun a => Fin.ext ?_)
    match a with
    | ⟨0, _⟩ => show win1_4.index t (0 : Fin 1) * 256 + 1 * (y 0).val = (y 0).val; omega
  have w5 : iblk1 V c 5 t = V c main_arg12 := by
    funext y; show V c main_arg12 (((cfg1.win 5).blk t).view.emb y) = V c main_arg12 y
    refine congrArg _ (funext fun a => Fin.ext ?_)
    match a with
    | ⟨0, _⟩ => show win1_5.index t (0 : Fin 2) * 256 + 1 * (y 0).val = (y 0).val; omega
    | ⟨1, _⟩ => show win1_5.index t (1 : Fin 2) * 256 + 1 * (y 1).val = (y 1).val; omega
  have w6 : iblk1 V c 6 t = V c main_arg13 := by
    funext y; show V c main_arg13 (((cfg1.win 6).blk t).view.emb y) = V c main_arg13 y
    refine congrArg _ (funext fun a => Fin.ext ?_)
    match a with
    | ⟨0, _⟩ => show win1_6.index t (0 : Fin 1) * 256 + 1 * (y 0).val = (y 0).val; omega
  have w7 : iblk1 V c 7 t = V c main_arg14 := by
    funext y; show V c main_arg14 (((cfg1.win 7).blk t).view.emb y) = V c main_arg14 y
    refine congrArg _ (funext fun a => Fin.ext ?_)
    match a with
    | ⟨0, _⟩ => show win1_7.index t (0 : Fin 2) * 256 + 1 * (y 0).val = (y 0).val; omega
    | ⟨1, _⟩ => show win1_7.index t (1 : Fin 2) * 128 + 1 * (y 1).val = (y 1).val; omega
  have w8 : iblk1 V c 8 t = V c main_arg15 := by
    funext y; show V c main_arg15 (((cfg1.win 8).blk t).view.emb y) = V c main_arg15 y
    refine congrArg _ (funext fun a => Fin.ext ?_)
    match a with
    | ⟨0, _⟩ => show win1_8.index t (0 : Fin 1) * 128 + 1 * (y 0).val = (y 0).val; omega
  rw [w2, w3, w4, w5, w6, w7, w8]
  funext y
  obtain ⟨p', q, rfl⟩ : ∃ (p' : Fin 5000) (q : Fin 128), y = ix2 p' q := ⟨y 0, y 1, eq_ix2 y⟩
  have hp' : p'.val < 5000 := p'.isLt
  have hemb : ((cfg1.win 9).blk t).view.emb (ix2 p' q)
      = ix2 (⟨win1_9.index t (0 : Fin 2) * 5000 + p'.val, by omega⟩ : Fin 50000) q := by
    funext a; apply Fin.ext
    match a with
    | ⟨0, _⟩ => show win1_9.index t (0 : Fin 2) * 5000 + 1 * p'.val = win1_9.index t (0 : Fin 2) * 5000 + p'.val; omega
    | ⟨1, _⟩ => show win1_9.index t (1 : Fin 2) * 128 + 1 * q.val = q.val; omega
  show nodeNet (iblk1 V c 0 t) (iblk1 V c 1 t) (V c main_v24) (V c main_v25)
      (V c main_arg11) (V c main_arg12) (V c main_arg13) (V c main_arg14) (V c main_arg15) (ix2 p' q)
    = arr V c (((cfg1.win 9).blk t).view.emb (ix2 p' q))
  rw [hemb]
  unfold arr
  refine nodeNet_row _ _ _ _ _ _ _ _ _ _ _ p' _ q (fun i => ?_) (fun i => ?_)
  · show V c main_arg0 (((cfg1.win 0).blk t).view.emb (ix2 p' i)) = V c main_arg0 _
    refine congrArg _ (funext fun a => Fin.ext ?_)
    match a with
    | ⟨0, _⟩ => show win1_0.index t (0 : Fin 2) * 5000 + 1 * p'.val = win1_9.index t (0 : Fin 2) * 5000 + p'.val; omega
    | ⟨1, _⟩ => show win1_0.index t (1 : Fin 2) * 128 + 1 * i.val = i.val; omega
  · show V c main_v23 (((cfg1.win 1).blk t).view.emb (ix2 p' i)) = V c main_v23 _
    refine congrArg _ (funext fun a => Fin.ext ?_)
    match a with
    | ⟨0, _⟩ => show win1_1.index t (0 : Fin 2) * 5000 + 1 * p'.val = win1_9.index t (0 : Fin 2) * 5000 + p'.val; omega
    | ⟨1, _⟩ => show win1_1.index t (1 : Fin 2) * 128 + 1 * i.val = i.val; omega

/-- An index of the array is in point t's block iff each coordinate is in the block's range on its axis. -/
theorem mem_blk (t : Fin cfg1.N) (i : S50000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v26).slice (win1_9.rect t)).set ↔ _
  rw [View.set_slice_whole, Rect.mem_set_unit]
  exact Iff.rfl

/-- Every row of the result lies in the block of the point numbered row / 5000. -/
theorem cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ := idx_onto ⟨(i 0).val / 5000, by omega⟩
  have q0 : win1_9.index t (0 : Fin 2) = (i 0).val / 5000 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- The result array after the call. -/
theorem final (c : Dev nD) : (dat1 V c).arrAt 9 cfg1.N = arr V c :=
  (dat1 V c).arrAt_eq_of_cover 9 (arr V c) (fun t _ => flushed_eq V c t) (cover)

end Cert.KernelIdeal.NodeArray

end
-- ==== Proof.KernelValue.lean ====
/-
  The idealized kernel's two results as functions of its argument arrays.

  Read through the fold of buffer contents: before the edge call the host picks the sender and receiver rows of the node
  table (an index below zero wrapped by the table's length, as indexing does), casts them and the edge features to the
  narrower float format (the identity on the extended reals) and cuts the first edge weight into its three row slabs;
  the edge call leaves the edge network of those; the host then adds each edge's message into its receiver's row of a zero
  table and cuts the first node weight into its two row slabs; the node call leaves the node network of the node table and
  the summed messages.
-/
import proofs.«115003_j72559177498912_2_alg».proof.Proof.KernelRun
import proofs.«115003_j72559177498912_2_alg».proof.Proof.EdgeArray
import proofs.«115003_j72559177498912_2_alg».proof.Proof.NodeArray
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.Layers

/-! ## The results as functions of the argument arrays -/

/-- The rows of the node table x picked by the index vector ix, an index below zero first wrapped by the table's length. -/
def pick (x : (⟨S50000x128, .f32⟩ : BufTy).Contents (Elt Ideal)) (ix : (⟨S800000, .i32⟩ : BufTy).Contents (Elt Ideal)) :
    (⟨S800000x128, .f32⟩ : BufTy).Contents (Elt Ideal) :=
  Host.gather gather_S50000x128_S800000x1_S800000x128_1_0_n_n_0_1_1128 x
    (broadcastInDim S800000x1 ![0] bcast_S800000_S800000x1_0
      (select (cmpi .slt ix (broadcastInDim S800000 ![] bcast_S_S800000 (constantI S_ 32 0#32)))
        (addi ix (broadcastInDim S800000 ![] bcast_S_S800000 (constantI S_ 32 50000#32))) ix))

/-- The edge result: the edge network of the picked sender rows, the picked receiver rows and the edge features. -/
def edgeOut (a0 : (⟨S50000x128, .f32⟩ : BufTy).Contents (Elt Ideal)) (a1 : (⟨S800000x64, .f32⟩ : BufTy).Contents (Elt Ideal))
    (a2 a3 : (⟨S800000, .i32⟩ : BufTy).Contents (Elt Ideal)) (a4 : (⟨S320x256, .f32⟩ : BufTy).Contents (Elt Ideal))
    (a5 : (⟨S256, .f32⟩ : BufTy).Contents (Elt Ideal)) (a6 : (⟨S256x256, .f32⟩ : BufTy).Contents (Elt Ideal))
    (a7 : (⟨S256, .f32⟩ : BufTy).Contents (Elt Ideal)) (a8 : (⟨S256x128, .f32⟩ : BufTy).Contents (Elt Ideal))
    (a9 : (⟨S128, .f32⟩ : BufTy).Contents (Elt Ideal)) : S800000x128.Idx → EReal :=
  edgeNet (pick a0 a2) (pick a0 a3) a1
    (extractStridedSlice S128x256 ![0, 0] a4 slices_S320x256_S128x256_0_0)
    (extractStridedSlice S128x256 ![128, 0] a4 slices_S320x256_S128x256_128_0)
    (extractStridedSlice S64x256 ![256, 0] a4 slices_S320x256_S64x256_256_0) a5 a6 a7 a8 a9

/-- Each edge's message added into its receiver's row of a zero table. -/
def inEdges (a3 : (⟨S800000, .i32⟩ : BufTy).Contents (Elt Ideal)) (e : (⟨S800000x128, .f32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 a3) e

/-- The node result: the node network of the node table and the summed incoming messages. -/
def nodeOut (a0 : (⟨S50000x128, .f32⟩ : BufTy).Contents (Elt Ideal)) (ie : (⟨S50000x128, .f32⟩ : BufTy).Contents (Elt Ideal))
    (a10 : (⟨S256x256, .f32⟩ : BufTy).Contents (Elt Ideal)) (a11 : (⟨S256, .f32⟩ : BufTy).Contents (Elt Ideal))
    (a12 : (⟨S256x256, .f32⟩ : BufTy).Contents (Elt Ideal)) (a13 : (⟨S256, .f32⟩ : BufTy).Contents (Elt Ideal))
    (a14 : (⟨S256x128, .f32⟩ : BufTy).Contents (Elt Ideal)) (a15 : (⟨S128, .f32⟩ : BufTy).Contents (Elt Ideal)) :
    S50000x128.Idx → EReal :=
  nodeNet a0 ie
    (extractStridedSlice S128x256 ![0, 0] a10 slices_S256x256_S128x256_0_0)
    (extractStridedSlice S128x256 ![128, 0] a10 slices_S256x256_S128x256_128_0) a11 a12 a13 a14 a15

variable (m : (ℓ : Loc nD τ sig) → Buf (Elt Ideal) ℓ) (ρ : Dev nD → PrngReg) (c : Dev nD)

/-! ## The edge call's operand arrays as it finds them -/

theorem V1_v7 : (V1 m ρ c main_v7 : S800000x128.Idx → EReal) = pick (m ((c : Thread nD τ).loc main_arg0)) (m ((c : Thread nD τ).loc main_arg2)) := by
  show StableHlo.after hostOps0 (W0 m ρ c) (Proc.devRef .tc main_v7) = _
  after_results <;> rfl
theorem V1_v15 : (V1 m ρ c main_v15 : S800000x128.Idx → EReal) = pick (m ((c : Thread nD τ).loc main_arg0)) (m ((c : Thread nD τ).loc main_arg3)) := by
  show StableHlo.after hostOps0 (W0 m ρ c) (Proc.devRef .tc main_v15) = _
  after_results <;> rfl
theorem V1_v16 : (V1 m ρ c main_v16 : S800000x64.Idx → EReal) = (m ((c : Thread nD τ).loc main_arg1)) := by
  show StableHlo.after hostOps0 (W0 m ρ c) (Proc.devRef .tc main_v16) = _
  after_results <;> rfl
theorem V1_v17 : (V1 m ρ c main_v17 : S128x256.Idx → EReal)
    = extractStridedSlice S128x256 ![0, 0] (m ((c : Thread nD τ).loc main_arg4)) slices_S320x256_S128x256_0_0 := by
  show StableHlo.after hostOps0 (W0 m ρ c) (Proc.devRef .tc main_v17) = _
  after_results <;> rfl
theorem V1_v18 : (V1 m ρ c main_v18 : S128x256.Idx → EReal)
    = extractStridedSlice S128x256 ![128, 0] (m ((c : Thread nD τ).loc main_arg4)) slices_S320x256_S128x256_128_0 := by
  show StableHlo.after hostOps0 (W0 m ρ c) (Proc.devRef .tc main_v18) = _
  after_results <;> rfl
theorem V1_v19 : (V1 m ρ c main_v19 : S64x256.Idx → EReal)
    = extractStridedSlice S64x256 ![256, 0] (m ((c : Thread nD τ).loc main_arg4)) slices_S320x256_S64x256_256_0 := by
  show StableHlo.after hostOps0 (W0 m ρ c) (Proc.devRef .tc main_v19) = _
  after_results <;> rfl
theorem W1_arg5 : W1 m ρ c (Proc.devRef .tc main_arg5) = (m ((c : Thread nD τ).loc main_arg5)) := by
  show StableHlo.after hostOps0 (W0 m ρ c) (Proc.devRef .tc main_arg5) = _
  after_results <;> rfl
theorem W1_arg6 : W1 m ρ c (Proc.devRef .tc main_arg6) = (m ((c : Thread nD τ).loc main_arg6)) := by
  show StableHlo.after hostOps0 (W0 m ρ c) (Proc.devRef .tc main_arg6) = _
  after_results <;> rfl
theorem W1_arg7 : W1 m ρ c (Proc.devRef .tc main_arg7) = (m ((c : Thread nD τ).loc main_arg7)) := by
  show StableHlo.after hostOps0 (W0 m ρ c) (Proc.devRef .tc main_arg7) = _
  after_results <;> rfl
theorem W1_arg8 : W1 m ρ c (Proc.devRef .tc main_arg8) = (m ((c : Thread nD τ).loc main_arg8)) := by
  show StableHlo.after hostOps0 (W0 m ρ c) (Proc.devRef .tc main_arg8) = _
  after_results <;> rfl
theorem W1_arg9 : W1 m ρ c (Proc.devRef .tc main_arg9) = (m ((c : Thread nD τ).loc main_arg9)) := by
  show StableHlo.after hostOps0 (W0 m ρ c) (Proc.devRef .tc main_arg9) = _
  after_results <;> rfl
theorem W1_arg3 : W1 m ρ c (Proc.devRef .tc main_arg3) = (m ((c : Thread nD τ).loc main_arg3)) := by
  show StableHlo.after hostOps0 (W0 m ρ c) (Proc.devRef .tc main_arg3) = _
  after_results <;> rfl
theorem W1_arg10 : W1 m ρ c (Proc.devRef .tc main_arg10) = (m ((c : Thread nD τ).loc main_arg10)) := by
  show StableHlo.after hostOps0 (W0 m ρ c) (Proc.devRef .tc main_arg10) = _
  after_results <;> rfl

/-! ## The edge result after the edge call -/

theorem W2_v20 : W2 m ρ c (Proc.devRef .tc main_v20) = edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W2_arr m ρ c 11).trans ((EdgeArray.final (V1 m ρ) c).trans ?_)
  unfold EdgeArray.arr edgeOut
  rw [V1_v7, V1_v15, V1_v16, V1_v17, V1_v18, V1_v19]
  rw [show V1 m ρ c main_arg5 = (m ((c : Thread nD τ).loc main_arg5)) from W1_arg5 m ρ c, show V1 m ρ c main_arg6 = (m ((c : Thread nD τ).loc main_arg6)) from W1_arg6 m ρ c,
    show V1 m ρ c main_arg7 = (m ((c : Thread nD τ).loc main_arg7)) from W1_arg7 m ρ c, show V1 m ρ c main_arg8 = (m ((c : Thread nD τ).loc main_arg8)) from W1_arg8 m ρ c,
    show V1 m ρ c main_arg9 = (m ((c : Thread nD τ).loc main_arg9)) from W1_arg9 m ρ c]

theorem W2_arg3 : W2 m ρ c (Proc.devRef .tc main_arg3) = (m ((c : Thread nD τ).loc main_arg3)) :=
  (W2_of_ne m ρ c main_arg3 (by decide)).trans (W1_arg3 m ρ c)
theorem W2_arg10 : W2 m ρ c (Proc.devRef .tc main_arg10) = (m ((c : Thread nD τ).loc main_arg10)) :=
  (W2_of_ne m ρ c main_arg10 (by decide)).trans (W1_arg10 m ρ c)

/-! ## The node call's operand arrays as it finds them -/

theorem V3_v23 : (V3 m ρ c main_v23 : S50000x128.Idx → EReal) = inEdges (m ((c : Thread nD τ).loc main_arg3)) (edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps1 (W2 m ρ c) (Proc.devRef .tc main_v23) = _
  after_results
  rw [W2_arg3, W2_v20]
  rfl
theorem V3_v24 : (V3 m ρ c main_v24 : S128x256.Idx → EReal)
    = extractStridedSlice S128x256 ![0, 0] (m ((c : Thread nD τ).loc main_arg10)) slices_S256x256_S128x256_0_0 := by
  show StableHlo.after hostOps1 (W2 m ρ c) (Proc.devRef .tc main_v24) = _
  after_results
  rw [W2_arg10]
theorem V3_v25 : (V3 m ρ c main_v25 : S128x256.Idx → EReal)
    = extractStridedSlice S128x256 ![128, 0] (m ((c : Thread nD τ).loc main_arg10)) slices_S256x256_S128x256_128_0 := by
  show StableHlo.after hostOps1 (W2 m ρ c) (Proc.devRef .tc main_v25) = _
  after_results
  rw [W2_arg10]
theorem V3_arg0 : V3 m ρ c main_arg0 = (m ((c : Thread nD τ).loc main_arg0)) :=
  ((W4_arr m ρ c 0).trans (((dat1 (V3 m ρ) c).arrAt_in 0 rfl _).trans (A_eq1 (V3 m ρ) c 0))).symm.trans (W4_main_arg0 m ρ c)
theorem V3_arg11 : V3 m ρ c main_arg11 = (m ((c : Thread nD τ).loc main_arg11)) :=
  ((W4_arr m ρ c 4).trans (((dat1 (V3 m ρ) c).arrAt_in 4 rfl _).trans (A_eq1 (V3 m ρ) c 4))).symm.trans (W4_main_arg11 m ρ c)
theorem V3_arg12 : V3 m ρ c main_arg12 = (m ((c : Thread nD τ).loc main_arg12)) :=
  ((W4_arr m ρ c 5).trans (((dat1 (V3 m ρ) c).arrAt_in 5 rfl _).trans (A_eq1 (V3 m ρ) c 5))).symm.trans (W4_main_arg12 m ρ c)
theorem V3_arg13 : V3 m ρ c main_arg13 = (m ((c : Thread nD τ).loc main_arg13)) :=
  ((W4_arr m ρ c 6).trans (((dat1 (V3 m ρ) c).arrAt_in 6 rfl _).trans (A_eq1 (V3 m ρ) c 6))).symm.trans (W4_main_arg13 m ρ c)
theorem V3_arg14 : V3 m ρ c main_arg14 = (m ((c : Thread nD τ).loc main_arg14)) :=
  ((W4_arr m ρ c 7).trans (((dat1 (V3 m ρ) c).arrAt_in 7 rfl _).trans (A_eq1 (V3 m ρ) c 7))).symm.trans (W4_main_arg14 m ρ c)
theorem V3_arg15 : V3 m ρ c main_arg15 = (m ((c : Thread nD τ).loc main_arg15)) :=
  ((W4_arr m ρ c 8).trans (((dat1 (V3 m ρ) c).arrAt_in 8 rfl _).trans (A_eq1 (V3 m ρ) c 8))).symm.trans (W4_main_arg15 m ρ c)

/-! ## The two results at the end of the fold -/

theorem W4_v20 : W4 m ρ c (Proc.devRef .tc main_v20) = edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_of_ne m ρ c main_v20 (by decide)).trans ?_
  show StableHlo.after hostOps1 (W2 m ρ c) (Proc.devRef .tc main_v20) = _
  after_results
  exact W2_v20 m ρ c

theorem W4_v26 : W4 m ρ c (Proc.devRef .tc main_v26)
    = nodeOut (m ((c : Thread nD τ).loc main_arg0)) (inEdges (m ((c : Thread nD τ).loc main_arg3)) (edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W4_arr m ρ c 9).trans ((NodeArray.final (V3 m ρ) c).trans ?_)
  unfold NodeArray.arr nodeOut
  rw [V3_v23, V3_v24, V3_v25, V3_arg0, V3_arg11, V3_arg12, V3_arg13, V3_arg14, V3_arg15]

/-! ## The run -/

/-- Every execution of the idealized kernel ends with its results at those functions of the arguments, the arguments unchanged. -/
theorem run : θ_run defs (onTc (τ := τ) (main (F := Ideal))) ⟨m, fun _ => 0, ρ⟩ (fun r => ∀ c : Dev nD,
      r.2.mem ((c.tc : Thread nD τ).loc main_v26)
        = nodeOut (m ((c : Thread nD τ).loc main_arg0)) (inEdges (m ((c : Thread nD τ).loc main_arg3)) (edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c.tc : Thread nD τ).loc main_v20) = edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (W4_v26 m ρ c), (h c).2.1.trans (W4_v20 m ρ c), (h c).2.2⟩)
    (run_results m ρ)

end Cert.KernelIdeal.Whole

end
-- ==== Proof.LibJoinedProduct.lean ====
/-
  The product of matrices joined side by side with one weight.

  Joining [m, k1], [m, k2] and [m, k3] along the columns gives an [m, K] matrix, K = k1 + k2 + k3, whose entry (p, j)
  is the first piece's for j < k1, the second's at j - k1 for the next k2 columns, the third's at j - k1 - k2 after that.
  Its product with a weight [K, n] is therefore the sum of the three pieces' products with the weight's rows
  0 .. k1, k1 .. k1 + k2 and k1 + k2 .. K: the K-term sum of each entry split into its three runs. The same with
  two pieces. Only that addition is commutative and associative is used.
-/
import proofs.«115003_j72559177498912_2_alg».proof.Proof.LibDenseLayers

noncomputable section

namespace Cert.Layers

open Idealize.ShloMosaic Idealize.ShloMosaic.ValueIdx

variable {α : Type} {m k1 k2 k3 K n : Nat}

/-! ## A joined matrix read at an entry -/

section Three
variable (a1 : (⟨2, ![m, k1]⟩ : Shape).Idx → α) (a2 : (⟨2, ![m, k2]⟩ : Shape).Idx → α) (a3 : (⟨2, ![m, k3]⟩ : Shape).Idx → α)
  (hcat : Shape.Concatenates [⟨2, ![m, k1]⟩, ⟨2, ![m, k2]⟩, ⟨2, ![m, k3]⟩] ⟨2, ![m, K]⟩ 1)

theorem join3_first (p : Fin m) (j : Fin k1) (hj : j.val < K) :
    concatenate ⟨2, ![m, K]⟩ 1 [⟨⟨2, ![m, k1]⟩, a1⟩, ⟨⟨2, ![m, k2]⟩, a2⟩, ⟨⟨2, ![m, k3]⟩, a3⟩] hcat (ix2 p ⟨j.val, hj⟩)
      = a1 (ix2 p j) :=
  concatenate_apply_piece (t := ⟨2, ![m, K]⟩) (1 : Fin 2) [⟨⟨2, ![m, k1]⟩, a1⟩, ⟨⟨2, ![m, k2]⟩, a2⟩, ⟨⟨2, ![m, k3]⟩, a3⟩] hcat _ 0 (by simp) ⟨2, ![m, k1]⟩ a1 rfl rfl 0 rfl (ix2 p j)
    (fun b hb => by match b with
      | ⟨0, _⟩ => rfl
      | ⟨1, _⟩ => exact absurd rfl hb)
    (by show 0 + j.val = j.val; omega)

theorem join3_second (p : Fin m) (j : Fin k2) (hj : k1 + j.val < K) :
    concatenate ⟨2, ![m, K]⟩ 1 [⟨⟨2, ![m, k1]⟩, a1⟩, ⟨⟨2, ![m, k2]⟩, a2⟩, ⟨⟨2, ![m, k3]⟩, a3⟩] hcat (ix2 p ⟨k1 + j.val, hj⟩)
      = a2 (ix2 p j) :=
  concatenate_apply_piece (t := ⟨2, ![m, K]⟩) (1 : Fin 2) [⟨⟨2, ![m, k1]⟩, a1⟩, ⟨⟨2, ![m, k2]⟩, a2⟩, ⟨⟨2, ![m, k3]⟩, a3⟩] hcat _ 1 (by simp) ⟨2, ![m, k2]⟩ a2 rfl rfl k1 (by simp) (ix2 p j)
    (fun b hb => by match b with
      | ⟨0, _⟩ => rfl
      | ⟨1, _⟩ => exact absurd rfl hb)
    rfl

theorem join3_third (p : Fin m) (j : Fin k3) (hj : k1 + k2 + j.val < K) :
    concatenate ⟨2, ![m, K]⟩ 1 [⟨⟨2, ![m, k1]⟩, a1⟩, ⟨⟨2, ![m, k2]⟩, a2⟩, ⟨⟨2, ![m, k3]⟩, a3⟩] hcat (ix2 p ⟨k1 + k2 + j.val, hj⟩)
      = a3 (ix2 p j) :=
  concatenate_apply_piece (t := ⟨2, ![m, K]⟩) (1 : Fin 2) [⟨⟨2, ![m, k1]⟩, a1⟩, ⟨⟨2, ![m, k2]⟩, a2⟩, ⟨⟨2, ![m, k3]⟩, a3⟩] hcat _ 2 (by simp) ⟨2, ![m, k3]⟩ a3 rfl rfl (k1 + k2) (by simp) (ix2 p j)
    (fun b hb => by match b with
      | ⟨0, _⟩ => rfl
      | ⟨1, _⟩ => exact absurd rfl hb)
    rfl

end Three

section Two
variable (a1 : (⟨2, ![m, k1]⟩ : Shape).Idx → α) (a2 : (⟨2, ![m, k2]⟩ : Shape).Idx → α)
  (hcat : Shape.Concatenates [⟨2, ![m, k1]⟩, ⟨2, ![m, k2]⟩] ⟨2, ![m, K]⟩ 1)

theorem join2_first (p : Fin m) (j : Fin k1) (hj : j.val < K) :
    concatenate ⟨2, ![m, K]⟩ 1 [⟨⟨2, ![m, k1]⟩, a1⟩, ⟨⟨2, ![m, k2]⟩, a2⟩] hcat (ix2 p ⟨j.val, hj⟩) = a1 (ix2 p j) :=
  concatenate_apply_piece (t := ⟨2, ![m, K]⟩) (1 : Fin 2) [⟨⟨2, ![m, k1]⟩, a1⟩, ⟨⟨2, ![m, k2]⟩, a2⟩] hcat _ 0 (by simp) ⟨2, ![m, k1]⟩ a1 rfl rfl 0 rfl (ix2 p j)
    (fun b hb => by match b with
      | ⟨0, _⟩ => rfl
      | ⟨1, _⟩ => exact absurd rfl hb)
    (by show 0 + j.val = j.val; omega)

theorem join2_second (p : Fin m) (j : Fin k2) (hj : k1 + j.val < K) :
    concatenate ⟨2, ![m, K]⟩ 1 [⟨⟨2, ![m, k1]⟩, a1⟩, ⟨⟨2, ![m, k2]⟩, a2⟩] hcat (ix2 p ⟨k1 + j.val, hj⟩) = a2 (ix2 p j) :=
  concatenate_apply_piece (t := ⟨2, ![m, K]⟩) (1 : Fin 2) [⟨⟨2, ![m, k1]⟩, a1⟩, ⟨⟨2, ![m, k2]⟩, a2⟩] hcat _ 1 (by simp) ⟨2, ![m, k2]⟩ a2 rfl rfl k1 (by simp) (ix2 p j)
    (fun b hb => by match b with
      | ⟨0, _⟩ => rfl
      | ⟨1, _⟩ => exact absurd rfl hb)
    rfl

end Two

/-! ## A row slab of the weight read at an entry -/

theorem slab_apply (w : (⟨2, ![K, n]⟩ : Shape).Idx → α) (o : Nat) {k : Nat}
    (hs : (⟨2, ![K, n]⟩ : Shape).Slices ![o, 0] ⟨2, ![k, n]⟩) (j : Fin k) (q : Fin n) (hj : o + j.val < K) :
    extractStridedSlice ⟨2, ![k, n]⟩ ![o, 0] w hs (ix2 j q) = w (ix2 ⟨o + j.val, hj⟩ q) :=
  extractStridedSlice_apply _ w hs (ix2 j q) (ix2 ⟨o + j.val, hj⟩ q) fun a => by
    match a with
    | ⟨0, _⟩ => rfl
    | ⟨1, _⟩ => show q.val = 0 + q.val; omega

/-! ## The product of a joined matrix -/

/-- Three pieces: the product with the weight is the sum of the pieces' products with its three row slabs. -/
theorem mm_join3 (o2 o3 : Nat) (hK : k1 + k2 + k3 = K) (ho2 : k1 = o2) (ho3 : k1 + k2 = o3)
    (a1 : Mat m k1) (a2 : Mat m k2) (a3 : Mat m k3) (w : Mat K n)
    (hcat : Shape.Concatenates [⟨2, ![m, k1]⟩, ⟨2, ![m, k2]⟩, ⟨2, ![m, k3]⟩] ⟨2, ![m, K]⟩ 1)
    (hs1 : (⟨2, ![K, n]⟩ : Shape).Slices ![0, 0] ⟨2, ![k1, n]⟩)
    (hs2 : (⟨2, ![K, n]⟩ : Shape).Slices ![o2, 0] ⟨2, ![k2, n]⟩)
    (hs3 : (⟨2, ![K, n]⟩ : Shape).Slices ![o3, 0] ⟨2, ![k3, n]⟩) :
    mm (concatenate ⟨2, ![m, K]⟩ 1 [⟨⟨2, ![m, k1]⟩, a1⟩, ⟨⟨2, ![m, k2]⟩, a2⟩, ⟨⟨2, ![m, k3]⟩, a3⟩] hcat) w
      = fun i => (mm a1 (extractStridedSlice ⟨2, ![k1, n]⟩ ![0, 0] w hs1) i
          + mm a2 (extractStridedSlice ⟨2, ![k2, n]⟩ ![o2, 0] w hs2) i)
          + mm a3 (extractStridedSlice ⟨2, ![k3, n]⟩ ![o3, 0] w hs3) i := by
  subst hK ho2 ho3
  funext i
  obtain ⟨p, q, rfl⟩ : ∃ (p : Fin m) (q : Fin n), i = ix2 p q := ⟨i 0, i 1, eq_ix2 i⟩
  simp only [mm_apply]
  rw [sum_three k1 k2 k3]
  refine congrArg₂ (· + ·) (congrArg₂ (· + ·) (Finset.sum_congr rfl fun j _ => ?_) (Finset.sum_congr rfl fun j _ => ?_))
    (Finset.sum_congr rfl fun j _ => ?_)
  · rw [join3_first a1 a2 a3 hcat p j, slab_apply w 0 hs1 j q (by omega)]
    exact congrArg (fun t => a1 (ix2 p j) * w (ix2 t q)) (Fin.ext (by simp))
  · rw [join3_second a1 a2 a3 hcat p j, slab_apply w k1 hs2 j q (by omega)]
  · rw [join3_third a1 a2 a3 hcat p j, slab_apply w (k1 + k2) hs3 j q (by omega)]

/-- Two pieces: the product with the weight is the sum of the pieces' products with its two row slabs. -/
theorem mm_join2 (o2 : Nat) (hK : k1 + k2 = K) (ho2 : k1 = o2)
    (a1 : Mat m k1) (a2 : Mat m k2) (w : Mat K n)
    (hcat : Shape.Concatenates [⟨2, ![m, k1]⟩, ⟨2, ![m, k2]⟩] ⟨2, ![m, K]⟩ 1)
    (hs1 : (⟨2, ![K, n]⟩ : Shape).Slices ![0, 0] ⟨2, ![k1, n]⟩)
    (hs2 : (⟨2, ![K, n]⟩ : Shape).Slices ![o2, 0] ⟨2, ![k2, n]⟩) :
    mm (concatenate ⟨2, ![m, K]⟩ 1 [⟨⟨2, ![m, k1]⟩, a1⟩, ⟨⟨2, ![m, k2]⟩, a2⟩] hcat) w
      = fun i => mm a1 (extractStridedSlice ⟨2, ![k1, n]⟩ ![0, 0] w hs1) i
          + mm a2 (extractStridedSlice ⟨2, ![k2, n]⟩ ![o2, 0] w hs2) i := by
  subst hK ho2
  funext i
  obtain ⟨p, q, rfl⟩ : ∃ (p : Fin m) (q : Fin n), i = ix2 p q := ⟨i 0, i 1, eq_ix2 i⟩
  simp only [mm_apply]
  rw [sum_two k1 k2]
  refine congrArg₂ (· + ·) (Finset.sum_congr rfl fun j _ => ?_) (Finset.sum_congr rfl fun j _ => ?_)
  · rw [join2_first a1 a2 hcat p j, slab_apply w 0 hs1 j q (by omega)]
    exact congrArg (fun t => a1 (ix2 p j) * w (ix2 t q)) (Fin.ext (by simp))
  · rw [join2_second a1 a2 hcat p j, slab_apply w k1 hs2 j q (by omega)]

end Cert.Layers

end
-- ==== Proof.RefValue.lean ====
/-
  The reference's two results are the same functions of the argument arrays as the tiled program's.

  The reference joins each edge's sender row, receiver row and own features into one 320-wide row and multiplies by the
  whole first weight; the tiled program multiplies the three pieces by the weight's three row slabs and adds. These agree
  entry by entry: the 320-term sum is its first 128, next 128 and last 64 terms. Likewise the node network's 256-wide
  joined row against its two 128-row slabs. The later layers, the biases and the rectifiers are spelt differently (a general
  product for a product on the matrix unit, a bias broadcast in two steps for one laid out as a row and repeated, a
  broadcast scalar zero for a repeated zero) and denote the same matrices. The row picking and the summing of messages
  per receiver are the same host operations in both programs and are carried through unopened.
-/
import proofs.«115003_j72559177498912_2_alg».proof.Proof.Gen.ReferenceIdeal
import proofs.«115003_j72559177498912_2_alg».proof.Proof.LibJoinedProduct
import proofs.«115003_j72559177498912_2_alg».proof.Proof.KernelValue

set_option maxRecDepth 16384

noncomputable section

namespace Cert.ReferenceIdeal.RefValue

open Idealize.ShloMosaic Idealize.ShloMosaic.ValueIdx Cert.ReferenceIdeal Cert.ReferenceIdeal.Gen Cert.Layers

/-- The reference's edge result is the edge network of the picked rows and the edge features. -/
theorem edge_eq (a0 : FVec Ideal S50000x128 .f32) (a1 : FVec Ideal S800000x64 .f32) (a2 : (⟨S800000, .i32⟩ : BufTy).Contents (Elt Ideal)) (a3 : (⟨S800000, .i32⟩ : BufTy).Contents (Elt Ideal)) (a4 : FVec Ideal S320x256 .f32)
    (a5 : FVec Ideal S256 .f32) (a6 : FVec Ideal S256x256 .f32) (a7 : FVec Ideal S256 .f32) (a8 : FVec Ideal S256x128 .f32) (a9 : FVec Ideal S128 .f32) :
    addf (F := Ideal) (Host.dotGeneral dot_S800000x256_S256x128_S800000x128_1_0_0_1_n_n none (maximumf (addf (Host.dotGeneral dot_S800000x256_S256x256_S800000x256_1_0_0_1_n_n none (maximumf (addf (Host.dotGeneral dot_S800000x320_S320x256_S800000x256_1_0_0_1_n_n none (concatenate S800000x320 1 [⟨S800000x128, (Host.gather gather_S50000x128_S800000x1_S800000x128_1_0_n_n_0_1_1128 a0 (broadcastInDim S800000x1 ![0] bcast_S800000_S800000x1_0 (select (cmpi .slt a2 (broadcastInDim S800000 ![] bcast_S_S800000 (constantI S_ 32 0#32))) (addi a2 (broadcastInDim S800000 ![] bcast_S_S800000 (constantI S_ 32 50000#32))) a2)))⟩, ⟨S800000x128, (Host.gather gather_S50000x128_S800000x1_S800000x128_1_0_n_n_0_1_1128 a0 (broadcastInDim S800000x1 ![0] bcast_S800000_S800000x1_0 (select (cmpi .slt a3 (broadcastInDim S800000 ![] bcast_S_S800000 (constantI S_ 32 0#32))) (addi a3 (broadcastInDim S800000 ![] bcast_S_S800000 (constantI S_ 32 50000#32))) a3)))⟩, ⟨S800000x64, a1⟩] concatenates_S800000x128_S800000x128_S800000x64_S800000x320_d1) a4) (broadcastInDim S800000x256 ![0, 1] bcast_S1x256_S800000x256_0_1 (broadcastInDim S1x256 ![1] bcast_S256_S1x256_1 a5))) (broadcastInDim S800000x256 ![] bcast_S_S800000x256 (constant (F := Ideal) S_ .f32 0x00000000#32))) a6) (broadcastInDim S800000x256 ![0, 1] bcast_S1x256_S800000x256_0_1 (broadcastInDim S1x256 ![1] bcast_S256_S1x256_1 a7))) (broadcastInDim S800000x256 ![] bcast_S_S800000x256 (constant (F := Ideal) S_ .f32 0x00000000#32))) a8) (broadcastInDim S800000x128 ![0, 1] bcast_S1x128_S800000x128_0_1 (broadcastInDim S1x128 ![1] bcast_S128_S1x128_1 a9))
      = Cert.KernelIdeal.Whole.edgeOut a0 a1 a2 a3 a4 a5 a6 a7 a8 a9 := by
  have J := fun (x1 x2 : Mat 800000 128) (x3 : Mat 800000 64) (w : Mat 320 256) hcat =>
    mm_join3 (m := 800000) (k1 := 128) (k2 := 128) (k3 := 64) (K := 320) (n := 256) 128 256 rfl rfl rfl x1 x2 x3 w hcat
      Cert.KernelIdeal.Gen.slices_S320x256_S128x256_0_0 Cert.KernelIdeal.Gen.slices_S320x256_S128x256_128_0
      Cert.KernelIdeal.Gen.slices_S320x256_S64x256_256_0
  simp only [
    hostMm_eq dot_S800000x320_S320x256_S800000x256_1_0_0_1_n_n dot_S800000x320_S320x256_S800000x256_1_0_0_1_n_n.wf rfl,
    hostMm_eq dot_S800000x256_S256x256_S800000x256_1_0_0_1_n_n dot_S800000x256_S256x256_S800000x256_1_0_0_1_n_n.wf rfl,
    hostMm_eq dot_S800000x256_S256x128_S800000x128_1_0_0_1_n_n dot_S800000x256_S256x128_S800000x128_1_0_0_1_n_n.wf rfl,
    J]
  rw [hostBias_eq, hostBias_eq, hostBias_eq, hostRect_eq, hostRect_eq]
  rfl

/-- The reference's node result, over any edge result e, is the node network of the node table and e's messages summed per receiver. -/
theorem node_eq (a0 : FVec Ideal S50000x128 .f32) (a3 : (⟨S800000, .i32⟩ : BufTy).Contents (Elt Ideal)) (e : FVec Ideal S800000x128 .f32) (a10 : FVec Ideal S256x256 .f32)
    (a11 : FVec Ideal S256 .f32) (a12 : FVec Ideal S256x256 .f32) (a13 : FVec Ideal S256 .f32) (a14 : FVec Ideal S256x128 .f32) (a15 : FVec Ideal S128 .f32) :
    addf (F := Ideal) (Host.dotGeneral dot_S50000x256_S256x128_S50000x128_1_0_0_1_n_n none (maximumf (addf (Host.dotGeneral dot_S50000x256_S256x256_S50000x256_1_0_0_1_n_n none (maximumf (addf (Host.dotGeneral dot_S50000x256_S256x256_S50000x256_1_0_0_1_n_n none (concatenate S50000x256 1 [⟨S50000x128, a0⟩, ⟨S50000x128, (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 a3) e)⟩] concatenates_S50000x128_S50000x128_S50000x256_d1) a10) (broadcastInDim S50000x256 ![0, 1] bcast_S1x256_S50000x256_0_1 (broadcastInDim S1x256 ![1] bcast_S256_S1x256_1 a11))) (broadcastInDim S50000x256 ![] bcast_S_S50000x256 (constant (F := Ideal) S_ .f32 0x00000000#32))) a12) (broadcastInDim S50000x256 ![0, 1] bcast_S1x256_S50000x256_0_1 (broadcastInDim S1x256 ![1] bcast_S256_S1x256_1 a13))) (broadcastInDim S50000x256 ![] bcast_S_S50000x256 (constant (F := Ideal) S_ .f32 0x00000000#32))) a14) (broadcastInDim S50000x128 ![0, 1] bcast_S1x128_S50000x128_0_1 (broadcastInDim S1x128 ![1] bcast_S128_S1x128_1 a15))
      = Cert.KernelIdeal.Whole.nodeOut a0 (Cert.KernelIdeal.Whole.inEdges a3 e) a10 a11 a12 a13 a14 a15 := by
  have J := fun (x1 x2 : Mat 50000 128) (w : Mat 256 256) hcat =>
    mm_join2 (m := 50000) (k1 := 128) (k2 := 128) (K := 256) (n := 256) 128 rfl rfl x1 x2 w hcat
      Cert.KernelIdeal.Gen.slices_S256x256_S128x256_0_0 Cert.KernelIdeal.Gen.slices_S256x256_S128x256_128_0
  simp only [
    hostMm_eq dot_S50000x256_S256x256_S50000x256_1_0_0_1_n_n dot_S50000x256_S256x256_S50000x256_1_0_0_1_n_n.wf rfl,
    hostMm_eq dot_S50000x256_S256x128_S50000x128_1_0_0_1_n_n dot_S50000x256_S256x128_S50000x128_1_0_0_1_n_n.wf rfl,
    J]
  rw [hostBias_eq, hostBias_eq, hostBias_eq, hostRect_eq, hostRect_eq]
  rfl

end Cert.ReferenceIdeal.RefValue

end
-- ==== Proof.lean ====
/-
  One step of message passing on a graph, tiled, against its plain statement, on the extended reals.

  Both programs pick each edge's sender and receiver rows of the node table, run the edge network (three dense layers,
  rectified after the first two) on the sender row, the receiver row and the edge's own features, add each edge's result
  into its receiver's row, and run the node network on each node's features and its summed incoming messages. The tiled
  program runs each network as a call over blocks of rows — 200 blocks of 4000 edges, 10 blocks of 5000 nodes — with the
  first layer's weight cut into one row slab per input and the products taken on the matrix unit after a cast to a
  narrower float format; the plain one joins the inputs into one wide row and takes one general product.

  On the extended reals the cast is the identity, a row of either network depends on that row of its inputs alone (so
  the blocks of rows assemble into the network of the whole arrays), and the wide product is the sum of the slab
  products because a finite sum may be split into consecutive runs. That is the whole difference, and it needs no
  finiteness of the inputs: the precondition is not opened.

  The three frames are the generated ones (the reference's is its generated run with the results dropped); the
  idealization rewrote nothing, so the second-to-last conjunct is trivial.
-/
import proofs.«115003_j72559177498912_2_alg».proof.Defs
import proofs.«115003_j72559177498912_2_alg».proof.Proof.Gen.Kernel
import proofs.«115003_j72559177498912_2_alg».proof.Proof.Gen.Kernel.Skeleton
import proofs.«115003_j72559177498912_2_alg».proof.Proof.Gen.Kernel.Launch
import proofs.«115003_j72559177498912_2_alg».proof.Proof.Gen.Kernel.Points
import proofs.«115003_j72559177498912_2_alg».proof.Proof.Gen.Kernel.Frame
import proofs.«115003_j72559177498912_2_alg».proof.Proof.Gen.KernelIdeal
import proofs.«115003_j72559177498912_2_alg».proof.Proof.Gen.KernelIdeal.Skeleton
import proofs.«115003_j72559177498912_2_alg».proof.Proof.Gen.KernelIdeal.Launch
import proofs.«115003_j72559177498912_2_alg».proof.Proof.Gen.KernelIdeal.Points
import proofs.«115003_j72559177498912_2_alg».proof.Proof.Gen.KernelIdeal.Frame
import proofs.«115003_j72559177498912_2_alg».proof.Proof.Gen.ReferenceIdeal
import proofs.«115003_j72559177498912_2_alg».proof.Proof.Gen.Pre_finite_inputs
import proofs.«115003_j72559177498912_2_alg».proof.Proof.Gen.ReferenceIdeal.Run
import proofs.«115003_j72559177498912_2_alg».proof.Proof.KernelValue
import proofs.«115003_j72559177498912_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the node result at the node network of the node table and the summed messages, and the edge
    result at the edge network of the picked rows and the edge features, of arguments that agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15⟩ := hagree c
    refine (Cert.ReferenceIdeal.RefValue.node_eq _ _ _ _ _ _ _ _ _).trans ?_
    rw [Cert.ReferenceIdeal.RefValue.edge_eq]
    rw [h0, h1, h2, h3, h4, h5, h6, h7, h8, h9, h10, h11, h12, h13, h14, h15]
  · obtain ⟨h0, h1, h2, h3, h4, h5, h6, h7, h8, h9, -⟩ := hagree c
    refine (Cert.ReferenceIdeal.RefValue.edge_eq _ _ _ _ _ _ _ _ _ _).trans ?_
    rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
